-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S16x512x512 : Shape := ⟨3, ![16, 512, 512]⟩
abbrev S16x512 : Shape := ⟨2, ![16, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S16x512x512 : S_.BroadcastsInDim S16x512x512 (![] : Fin 0 → Fin S16x512x512.rank)
  reducesTo_S16x512x512_S_d0_1_2 : S16x512x512.ReducesTo [0, 1, 2] S_
  bcast_S_S16x512 : S_.BroadcastsInDim S16x512 (![] : Fin 0 → Fin S16x512.rank)
  reducesTo_S16x512_S_d0_1 : S16x512.ReducesTo [0, 1] S_

variable [Facts]

def fn {F : FTy → Type} [FloatOps F] (main_arg0 : FVec F S8192x512 .f32) (main_arg1 : FVec F S16x512x512 .f32) (main_arg2 : FVec F S16x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S16x512x512 .f32 := Host.absf main_arg1
  let main_cst_0 : FVec F S_ .f32 := constant S_ .f32 0x7F800000#32
  let main_v5 : FVec F S16x512x512 .f32 := broadcastInDim S16x512x512 ![] bcast_S_S16x512x512 main_cst_0
  let main_v6 : IVec S16x512x512 1 := cmpf .olt main_v4 main_v5
  let main_c_1 : IVec S_ 1 := constantI S_ 1 1#1
  let main_v7 : IVec S_ 1 := (fun x v => Host.reduce IntOp.andi x v reducesTo_S16x512x512_S_d0_1_2 h_S_) main_v6 main_c_1
  let main_v8 : IVec S_ 1 := andi main_v3 main_v7
  let main_v9 : FVec F S16x512 .f32 := Host.absf main_arg2
  let main_cst_2 : FVec F S_ .f32 := constant S_ .f32 0x7F800000#32
  let main_v10 : FVec F S16x512 .f32 := broadcastInDim S16x512 ![] bcast_S_S16x512 main_cst_2
  let main_v11 : IVec S16x512 1 := cmpf .olt main_v9 main_v10
  let main_c_3 : IVec S_ 1 := constantI S_ 1 1#1
  let main_v12 : IVec S_ 1 := (fun x v => Host.reduce IntOp.andi x v reducesTo_S16x512_S_d0_1 h_S_) main_v11 main_c_3
  let main_v13 : IVec S_ 1 := andi main_v8 main_v12
  main_v13
-- ==== Kernel.lean ====
abbrev S8192x512 : Shape := ⟨2, ![8192, 512]⟩
abbrev S16x512x512 : Shape := ⟨3, ![16, 512, 512]⟩
abbrev S16x512 : Shape := ⟨2, ![16, 512]⟩
abbrev S16x1x512 : Shape := ⟨3, ![16, 1, 512]⟩
abbrev S16x8192x512 : Shape := ⟨3, ![16, 8192, 512]⟩
abbrev S2048x512 : Shape := ⟨2, ![2048, 512]⟩
abbrev S1x1x512 : Shape := ⟨3, ![1, 1, 512]⟩
abbrev S1x2048x512 : Shape := ⟨3, ![1, 2048, 512]⟩
abbrev S1x512x512 : Shape := ⟨3, ![1, 512, 512]⟩
abbrev S512x512 : Shape := ⟨2, ![512, 512]⟩
abbrev S1x512 : Shape := ⟨2, ![1, 512]⟩

abbrev nBuf : Space → Nat
  | .hbm => 7
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S16x512x512, .f32⟩
  | .hbm, ⟨2, _⟩ => ⟨S16x512, .f32⟩
  | .hbm, ⟨3, _⟩ => ⟨S8192x512, .bf16⟩
  | .hbm, ⟨4, _⟩ => ⟨S16x512x512, .bf16⟩
  | .hbm, ⟨5, _⟩ => ⟨S16x1x512, .f32⟩
  | .hbm, ⟨6, _⟩ => ⟨S16x8192x512, .f32⟩
  | .local _ .vmem, ⟨0, _⟩ => ⟨S2048x512, .bf16⟩
  | .local _ .vmem, ⟨1, _⟩ => ⟨S2048x512, .bf16⟩
  | .local _ .vmem, ⟨2, _⟩ => ⟨S16x512x512, .bf16⟩
  | .local _ .vmem, ⟨3, _⟩ => ⟨S1x1x512, .f32⟩
  | .local _ .vmem, ⟨4, _⟩ => ⟨S1x1x512, .f32⟩
  | .local _ .vmem, ⟨5, _⟩ => ⟨S1x2048x512, .f32⟩
  | .local _ .vmem, ⟨6, _⟩ => ⟨S1x2048x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 16], ![false, false]⟩

def k0_off1 (i : grid0.Coords) : Fin 3 → Nat :=
  let arg1 : BitVec 32 := BitVec.ofNat 32 (i 1).val
  let v2 : Index := Scalar.indexCast arg1
  let c0_1 : Index := 0#32
  let c0_2 : Index := 0#32
  ![v2.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S16x512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bitsLt_bf16_f32 : FTy.bits .bf16 < FTy.bits .f32
  shapeCasts_S16x512_S16x1x512 : S16x512.ShapeCasts S16x1x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  h_S1x512x512 : 0 < S1x512x512.numel
  shapeCasts_S1x512x512_S512x512 : S1x512x512.ShapeCasts S512x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S1x512_S2048x512 : S1x512.Broadcasts S2048x512
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  shapeCasts_S2048x512_S1x2048x512 : S2048x512.ShapeCasts S1x2048x512
  dot_S2048x512_S512x512_S2048x512_1_1_0_0_n_n_wf : DotDims.WF S2048x512 S512x512 S2048x512 [1] [1] [0] [0] [] []
  hrank0 : 0 < grid0.rank
  k0_off1_inb : ∀ i : grid0.Coords, ∀ a, (k0_off1 i) a + S1x512x512.size a ≤ S16x512x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x512.size a
  hwx0_0 : ∀ i : grid0.Coords, EltTy.bits .bf16 = 32 ∨ (Rect.block (s := S8192x512) S2048x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x512x512.size a ≤ S16x512x512.size a
  hwx0_1 : ∀ i : grid0.Coords, EltTy.bits .bf16 = 32 ∨ (Rect.block (s := S16x512x512) S16x512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S16x1x512.size a
  hwx0_2 : ∀ i : grid0.Coords, EltTy.bits .f32 = 32 ∨ (Rect.block (s := S16x1x512) S1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x512.size a ≤ S16x8192x512.size a
  hwx0_3 : ∀ i : grid0.Coords, EltTy.bits .f32 = 32 ∨ (Rect.block (s := S16x8192x512) S1x2048x512.size (cc0_transform_3 i) (hinb0_3 i)).WholeWords (EltTy.packing .f32)

variable [Facts₀]

def dot_S2048x512_S512x512_S2048x512_1_1_0_0_n_n : DotDims S2048x512 S512x512 S2048x512 where
  lhsContracting := [1]
  rhsContracting := [1]
  lhsNonContracting := [0]
  rhsNonContracting := [0]
  lhsBatch := []
  rhsBatch := []
  wf := dot_S2048x512_S512x512_S2048x512_1_1_0_0_n_n_wf

abbrev win0_0 : Pipeline.Window sig grid0 :=
  Pipeline.Window.ofSpec (Memref.whole main_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x512 : Shape := ⟨2, ![8192, 512]⟩
abbrev S16x512x512 : Shape := ⟨3, ![16, 512, 512]⟩
abbrev S16x512 : Shape := ⟨2, ![16, 512]⟩
abbrev S16x512x8192 : Shape := ⟨3, ![16, 512, 8192]⟩
abbrev S16x8192x512 : Shape := ⟨3, ![16, 8192, 512]⟩
abbrev S16x1x512 : Shape := ⟨3, ![16, 1, 512]⟩

abbrev nBuf : Space → Nat
  | .hbm => 8
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S16x512x512, .f32⟩
  | .hbm, ⟨2, _⟩ => ⟨S16x512, .f32⟩
  | .hbm, ⟨3, _⟩ => ⟨S16x512x8192, .f32⟩
  | .hbm, ⟨4, _⟩ => ⟨S16x8192x512, .f32⟩
  | .hbm, ⟨5, _⟩ => ⟨S16x1x512, .f32⟩
  | .hbm, ⟨6, _⟩ => ⟨S16x8192x512, .f32⟩
  | .hbm, ⟨7, _⟩ => ⟨S16x8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  transposes_S16x512x8192_S16x8192x512_0_2_1 : S16x512x8192.Transposes [0, 2, 1] S16x8192x512
  bcast_S16x512_S16x1x512_0_2 : S16x512.BroadcastsInDim S16x1x512 (![0, 2] : Fin 2 → Fin S16x1x512.rank)
  bcast_S16x1x512_S16x8192x512_0_1_2 : S16x1x512.BroadcastsInDim S16x8192x512 (![0, 1, 2] : Fin 3 → Fin S16x8192x512.rank)
  dot_S16x512x512_S8192x512_S16x512x8192_2_1_01_0_n_n_wf : DotDims.WF S16x512x512 S8192x512 S16x512x8192 [2] [1] [0, 1] [0] [] []

variable [Facts₀]

def dot_S16x512x512_S8192x512_S16x512x8192_2_1_01_0_n_n : DotDims S16x512x512 S8192x512 S16x512x8192 where
  lhsContracting := [2]
  rhsContracting := [1]
  lhsNonContracting := [0, 1]
  rhsNonContracting := [0]
  lhsBatch := []
  rhsBatch := []
  wf := dot_S16x512x512_S8192x512_S16x512x8192_2_1_01_0_n_n_wf

class Facts : Prop extends Facts₀ where

variable [Facts]
-- ==== Proof.Spec.lean ====
/-
  Sixteen linear layers applied to one batch of rows, as ONE function of the three argument arrays on the extended
  reals: for expert `e`, row `n` and output feature `o`,

      out[e, n, o] = Σ_d x[n, d] · W[e, o, d] + b[e, o].

  Both programs of this certificate compute it: the kernel one (expert, row-tile) block at a time, as a matrix product
  of a tile of `x` with one expert's weight matrix contracted over the shared feature axis, plus that expert's bias row
  repeated down the tile; the reference as one batched contraction `W[e, o, ·] · x[n, ·]`, transposed, plus the bias
  broadcast. The only law between the two is that a product of two extended reals does not depend on the order of its
  factors, which holds at the infinities too: no finiteness of the inputs is used anywhere.
-/
import Idealize.ShloMosaic.PureOps.Ideal
import Idealize.ShloMosaic.Lib.ValueIdx

noncomputable section

open scoped BigOperators

namespace Cert.ExpertLinear

open Idealize.ShloMosaic Idealize.ShloMosaic.ValueIdx

/-- Row `i 1` of the batch through expert `i 0`'s linear layer, at output feature `i 2`: the inner product of the row with
    the expert's weight row for that feature, plus the expert's bias for that feature. -/
def layers (X : (⟨2, ![8192, 512]⟩ : Shape).Idx → EReal) (W : (⟨3, ![16, 512, 512]⟩ : Shape).Idx → EReal)
    (B : (⟨2, ![16, 512]⟩ : Shape).Idx → EReal) : (⟨3, ![16, 8192, 512]⟩ : Shape).Idx → EReal :=
  fun i => (∑ k : Fin 512, X (ix2 (i 1) k) * W (ix3 (i 0) (i 2) k)) + B (ix2 (i 0) (i 2))

/-- The same element with the three coordinates named. -/
theorem layers_apply (X : (⟨2, ![8192, 512]⟩ : Shape).Idx → EReal) (W : (⟨3, ![16, 512, 512]⟩ : Shape).Idx → EReal)
    (B : (⟨2, ![16, 512]⟩ : Shape).Idx → EReal) (e : Fin 16) (n : Fin 8192) (o : Fin 512) :
    layers X W B (ix3 e n o) = (∑ k : Fin 512, X (ix2 n k) * W (ix3 e o k)) + B (ix2 e o) := rfl

/-- An element assembled from any three families that agree, term by term, with the row, the weight row and the bias
    it is made of. -/
theorem layers_of_terms (X : (⟨2, ![8192, 512]⟩ : Shape).Idx → EReal) (W : (⟨3, ![16, 512, 512]⟩ : Shape).Idx → EReal)
    (B : (⟨2, ![16, 512]⟩ : Shape).Idx → EReal) (i : (⟨3, ![16, 8192, 512]⟩ : Shape).Idx)
    (xs ws : Fin 512 → EReal) (bias : EReal)
    (hx : ∀ k, xs k = X (ix2 (i 1) k)) (hw : ∀ k, ws k = W (ix3 (i 0) (i 2) k)) (hb : bias = B (ix2 (i 0) (i 2))) :
    (∑ k : Fin 512, xs k * ws k) + bias = layers X W B i := by
  unfold layers
  rw [hb]
  exact congrArg (· + B (ix2 (i 0) (i 2))) (Finset.sum_congr rfl fun k _ => by rw [hx k, hw k])

end Cert.ExpertLinear

end
-- ==== Proof.Payload.lean ====
/-
  What one grid point of the kernel computes, read element by element on the extended reals.

  A point (row-tile `i`, expert `e`) loads a [2048, 512] tile of `x`, the [1, 512, 512] slab of the resident weight
  array at leading offset `e`, and the expert's [1, 1, 512] bias row, and stores ONE [1, 2048, 512] block:

      block[0, r, o] = Σ_k tile[r, k] · slab[0, o, k] + bias[0, 0, o].

  The matrix product contracts axis 1 of the tile with axis 1 of the weight matrix, into a zero accumulator, so at the
  ideal values it is exactly that sum over the 512 shared features; the bias row is repeated down the 2048 rows; the
  shape casts only drop or add a leading unit axis. The arrays the kernel's windows read were written by three host
  operations before the region — two changes of float format, the identity on extended reals, and a reshape of the bias
  from [16, 512] to [16, 1, 512], which keeps the row-major position.
-/
import proofs.«144453_j51926154609119_2_alg».proof.Proof.Gen.KernelIdeal.Frame
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic
import Idealize.ShloMosaic.PureOps.Ideal.Laws

set_option maxRecDepth 16384

noncomputable section

open scoped BigOperators
open Idealize.ShloMosaic Idealize.ShloMosaic.TcCoe Idealize.SL.Sem Idealize.ShloMosaic.ValueIdx

namespace Cert.KernelIdeal.Bridge

open Cert.KernelIdeal Cert.KernelIdeal.Gen

/-! ## The one store of the body -/

theorem zeros3 : (![0, 0, 0] : Fin 3 → Nat) = fun _ => 0 := funext fun a => by fin_cases a <;> rfl
theorem zeros2 : (![0, 0] : Fin 2 → Nat) = fun _ => 0 := funext fun a => by fin_cases a <;> rfl

section AnyValues
variable {F : FTy → Type} [FloatOps F]

/-- The weight slab a point reads: the resident [16, 512, 512] buffer through the unit-stride rectangle of sizes
    [1, 512, 512] whose leading offset is the point's expert coordinate. -/
abbrev slab (i : grid0.Coords) (x1 : Vec F S16x512x512 .bf16) : Vec F S1x512x512 .bf16 :=
  View.ld x1 (Rect.unit (s := S16x512x512) (k0_off1 i) S1x512x512.size (k0_off1_inb i))

/-- What the body leaves in the output's staging buffer is its one store's value: the store goes through the whole
    [1, 2048, 512] rectangle, the tile and the bias row are loaded whole, and the weights through the slab's rectangle. -/
theorem stored_block (c : Dev nD) (i : grid0.Coords) (arg2 : Memref sig .tc .vmem S2048x512 .bf16) (harg2 : arg2.IsWhole)
    (arg3 : Memref sig .tc .vmem S16x512x512 .bf16) (harg3 : arg3.IsWhole) (arg4 : Memref sig .tc .vmem S1x1x512 .f32) (harg4 : arg4.IsWhole)
    (arg5 : Memref sig .tc .vmem S1x2048x512 .f32) (harg5 : arg5.IsWhole)
    (x0 : Vec F S2048x512 .bf16) (x1 : Vec F S16x512x512 .bf16) (x2 : Vec F S1x1x512 .f32) :
    out0_A_3 c i arg2 harg2 arg3 harg3 arg4 harg4 arg5 harg5 x0 x1 x2 = k0_pay1 x0 (slab i x1) x2 := by
  unfold out0_A_3
  rw [View.read_writes_eq_canon _ _ _ (cover0_A_3 c i arg2 harg2 arg3 harg3 arg4 harg4 arg5 harg5 x0 x1 x2)]
  unfold kernelRun0_A
  dsimp only
  rw [View.canon_unit_zero zeros3]
  simp only [View.readAt_eq_ld, harg2.read_unread, harg3.read_unread, harg4.read_unread,
    View.ld_unit_zero (S := S2048x512) zeros2, View.ld_unit_zero (S := S1x1x512) zeros3]

end AnyValues

/-! ## The matrix product at an output index: a sum over the 512 shared features -/

/-- The tile's index at output (r, o) and contraction index `q`: row `r`, … -/
theorem tile_row (j : S2048x512.Idx) (q : (dot_S2048x512_S512x512_S2048x512_1_1_0_0_n_n).contr.Idx) :
    ((dot_S2048x512_S512x512_S2048x512_1_1_0_0_n_n).lhsIdx j q 0).val = (j 0).val := by
  unfold DotDims.lhsIdx
  rw [dif_neg (show ¬(0 : Fin S2048x512.rank) ∈ (dot_S2048x512_S512x512_S2048x512_1_1_0_0_n_n).lhsBatch by decide),
    dif_pos (show (0 : Fin S2048x512.rank) ∈ (dot_S2048x512_S512x512_S2048x512_1_1_0_0_n_n).lhsNonContracting by decide)]
  rfl
/-- … feature `q`. -/
theorem tile_feature (j : S2048x512.Idx) (q : (dot_S2048x512_S512x512_S2048x512_1_1_0_0_n_n).contr.Idx) :
    ((dot_S2048x512_S512x512_S2048x512_1_1_0_0_n_n).lhsIdx j q 1).val = (q ⟨0, by decide⟩).val :=
  (dot_S2048x512_S512x512_S2048x512_1_1_0_0_n_n).lhsIdx_val_of_single rfl j q
/-- The weight matrix's index there: its row is the OUTPUT FEATURE `o` (the product is with the transpose), … -/
theorem weight_row (j : S2048x512.Idx) (q : (dot_S2048x512_S512x512_S2048x512_1_1_0_0_n_n).contr.Idx) :
    ((dot_S2048x512_S512x512_S2048x512_1_1_0_0_n_n).rhsIdx j q 0).val = (j 1).val := by
  unfold DotDims.rhsIdx
  rw [dif_neg (show ¬(0 : Fin S512x512.rank) ∈ (dot_S2048x512_S512x512_S2048x512_1_1_0_0_n_n).rhsBatch by decide),
    dif_pos (show (0 : Fin S512x512.rank) ∈ (dot_S2048x512_S512x512_S2048x512_1_1_0_0_n_n).rhsNonContracting by decide)]
  rfl
/-- … its column the shared feature `q`. -/
theorem weight_feature (j : S2048x512.Idx) (q : (dot_S2048x512_S512x512_S2048x512_1_1_0_0_n_n).contr.Idx) :
    ((dot_S2048x512_S512x512_S2048x512_1_1_0_0_n_n).rhsIdx j q 1).val = (q ⟨0, by decide⟩).val :=
  (dot_S2048x512_S512x512_S2048x512_1_1_0_0_n_n).rhsIdx_val_of_single rfl j q

/-- Into the zero accumulator, the product of a tile `l` with a weight matrix `w` at (r, o) is `Σ_k l[r, k] · w[o, k]`. -/
theorem product_apply (l : FVec Ideal S2048x512 .bf16) (w : FVec Ideal S512x512 .bf16) (r : Fin 2048) (o : Fin 512) :
    matmul dot_S2048x512_S512x512_S2048x512_1_1_0_0_n_n none l w (constant (F := Ideal) S2048x512 .f32 0x00000000#32) (ix2 r o)
      = ∑ k : Fin 512, l (ix2 r k) * w (ix2 o k) := by
  simp only [matmul]
  rw [Ideal.matmul_constant_zero_apply,
    ← Equiv.sum_comp (contrEquiv1 dot_S2048x512_S512x512_S2048x512_1_1_0_0_n_n 512 rfl rfl).symm]
  refine Finset.sum_congr rfl fun k _ => ?_
  have hk := contrEquiv1_symm_val dot_S2048x512_S512x512_S2048x512_1_1_0_0_n_n 512 rfl rfl k
  have el : (dot_S2048x512_S512x512_S2048x512_1_1_0_0_n_n).lhsIdx (ix2 r o)
      ((contrEquiv1 dot_S2048x512_S512x512_S2048x512_1_1_0_0_n_n 512 rfl rfl).symm k) = ix2 r k :=
    funext fun a => Fin.ext (by
      match a with
      | ⟨0, _⟩ => exact tile_row _ _
      | ⟨1, _⟩ => exact (tile_feature _ _).trans hk)
  have er : (dot_S2048x512_S512x512_S2048x512_1_1_0_0_n_n).rhsIdx (ix2 r o)
      ((contrEquiv1 dot_S2048x512_S512x512_S2048x512_1_1_0_0_n_n 512 rfl rfl).symm k) = ix2 o k :=
    funext fun a => Fin.ext (by
      match a with
      | ⟨0, _⟩ => exact weight_row _ _
      | ⟨1, _⟩ => exact (weight_feature _ _).trans hk)
  rw [el, er]

/-! ## The stored block at an index -/

/-- The stored block at (u, r, o): the inner product of row `r` of the tile with row `o` of the slab's one matrix, plus
    the bias row at `o`. -/
theorem block_apply (x0 : Vec Ideal S2048x512 .bf16) (v3 : Vec Ideal S1x512x512 .bf16) (x2 : Vec Ideal S1x1x512 .f32)
    (u : Fin 1) (r : Fin 2048) (o : Fin 512) :
    k0_pay1 (F := Ideal) x0 v3 x2 (ix3 u r o)
      = (∑ k : Fin 512, x0 (ix2 r k) * v3 (ix3 (0 : Fin 1) o k)) + x2 (ix3 (0 : Fin 1) (0 : Fin 1) o) := by
  unfold k0_pay1
  rw [shapeCast_ab_1ab_apply, addf_apply, product_apply, broadcastTo_1b_ab_apply, shapeCast_1ab_ab_apply, shapeCast_self]
  simp only [shapeCast_1ab_ab_apply]

/-! ## The arrays the windows read, as the host operations before the region left them -/

variable (m : (ℓ : Loc nD τ sig) → Buf (Elt Ideal) ℓ)

/-- The narrowed copy of `x` is `x`: a change of float format is the identity on extended reals. -/
theorem narrowed_x_apply (c : Dev nD) (j : S8192x512.Idx) :
    V m c main_v0 j = m ((c : Thread nD τ).loc main_arg0) j := by
  have e : V m c main_v0 = ((truncf (F := Ideal) .bf16 · bitsLt_bf16_f32) : (⟨S8192x512, .f32⟩ : BufTy).Contents (Elt Ideal) → (⟨S8192x512, .bf16⟩ : BufTy).Contents (Elt Ideal)) (m ((c : Thread nD τ).loc main_arg0)) := by
    dsimp only [Gen.V, Gen.hostOps0]; after_results
  exact congrFun e j

/-- The narrowed copy of `W` is `W`. -/
theorem narrowed_w_apply (c : Dev nD) (j : S16x512x512.Idx) :
    V m c main_v1 j = m ((c : Thread nD τ).loc main_arg1) j := by
  have e : V m c main_v1 = ((truncf (F := Ideal) .bf16 · bitsLt_bf16_f32) : (⟨S16x512x512, .f32⟩ : BufTy).Contents (Elt Ideal) → (⟨S16x512x512, .bf16⟩ : BufTy).Contents (Elt Ideal)) (m ((c : Thread nD τ).loc main_arg1)) := by
    dsimp only [Gen.V, Gen.hostOps0]; after_results
  exact congrFun e j

/-- The bias reshaped to [16, 1, 512] reads, at (e, 0, o), the bias at (e, o): the same row-major position. -/
theorem reshaped_b_apply (c : Dev nD) (e : Fin 16) (z : Fin 1) (o : Fin 512) :
    V m c main_v2 (ix3 e z o) = m ((c : Thread nD τ).loc main_arg2) (ix2 e o) := by
  have h : (V m c main_v2 : S16x1x512.Idx → EReal)
      = shapeCast S16x1x512 (m ((c : Thread nD τ).loc main_arg2)) shapeCasts_S16x512_S16x1x512 := by
    dsimp only [Gen.V, Gen.hostOps0]; after_results; rfl
  rw [h]
  refine shapeCast_apply _ _ _ _ ?_
  have hz : z.val = 0 := by omega
  show (S16x512.rowMajor (ix2 e o)).val = (S16x1x512.rowMajor (ix3 e z o)).val
  rw [Shape.rowMajor_val_three, Shape.rowMajor_val_two]
  show e.val * 512 + o.val = (e.val * 1 + z.val) * 512 + o.val
  rw [hz]; omega

end Cert.KernelIdeal.Bridge

end
-- ==== Proof.KernelValue.lean ====
/-
  The kernel's result array after the run, as one function of the argument arrays.

  The grid has 4 × 16 points; point (row-tile `i`, expert `e`) writes back block (e, i, 0) of the [16, 8192, 512]
  result, of sizes [1, 2048, 512]. Its inputs are the blocks its other windows hold there: row-tile `i` of `x`
  (rows 2048·i … 2048·i + 2047), the whole weight array, of which the body reads the slab at leading offset `e`, and
  row `e` of the reshaped bias. So the element the point stores at (0, r, o) is

      Σ_k x[2048·i + r, k] · W[e, o, k] + b[e, o],

  which is the specification at the array index (e, 2048·i + r, o) that the block places it at. The 64 blocks tile
  the array — index (e, n, o) lies in the block of the point with expert `e` and row-tile `n / 2048` — so the whole
  array ends holding the specification.
-/
import proofs.«144453_j51926154609119_2_alg».proof.Proof.Gen.KernelIdeal.Value
import proofs.«144453_j51926154609119_2_alg».proof.Proof.Spec
import proofs.«144453_j51926154609119_2_alg».proof.Proof.Payload

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Bridge

open Cert.KernelIdeal Cert.KernelIdeal.Gen Cert.ExpertLinear

variable (m : (ℓ : Loc nD τ sig) → Buf (Elt Ideal) ℓ) (ρ : Dev nD → PrngReg)

/-! ## Where each window's block sits at a point -/

/-- The block indices of the four windows at a point, against the output's: the tile of `x` moves with the output's
    row-tile, the weights never move, the bias row moves with the output's expert, which is also the point's second
    grid coordinate — the slab the body reads. Decided over the 64 points. -/
theorem block_indices : ∀ t : Fin cfg0.N,
    win0_0.index t (0 : Fin 2) = win0_3.index t (1 : Fin 3)
    ∧ win0_0.index t (1 : Fin 2) = 0
    ∧ win0_1.index t (0 : Fin 3) = 0 ∧ win0_1.index t (1 : Fin 3) = 0 ∧ win0_1.index t (2 : Fin 3) = 0
    ∧ win0_2.index t (0 : Fin 3) = win0_3.index t (0 : Fin 3)
    ∧ win0_2.index t (1 : Fin 3) = 0 ∧ win0_2.index t (2 : Fin 3) = 0
    ∧ win0_3.index t (2 : Fin 3) = 0
    ∧ (grid0.coords t (1 : Fin 2)).val = win0_3.index t (0 : Fin 3)
    ∧ win0_3.index t (0 : Fin 3) < 16 ∧ win0_3.index t (1 : Fin 3) < 4 :=
  (by decide +kernel : ∀ t : Fin grid0.N, _)

/-- Every (expert, row-tile) pair is some point's output block. -/
theorem block_of_pair : ∀ (e : Fin 16) (i : Fin 4), ∃ t : Fin cfg0.N, win0_3.index t = ![e.val, i.val, 0] :=
  (by decide +kernel : ∀ (e : Fin 16) (i : Fin 4), ∃ t : Fin grid0.N, win0_3.index t = ![e.val, i.val, 0])

/-! ## What a point writes back -/

/-- What point `t` writes back is its block of the specification of the argument arrays. -/
theorem written_block (c : Dev nD) (t : Fin cfg0.N) :
    (dats m 0 c).flushed 3 t = ((cfg0.win 3).blk t).view.read (Elt Ideal)
      (layers (m ((c : Thread nD τ).loc main_arg0)) (m ((c : Thread nD τ).loc main_arg1)) (m ((c : Thread nD τ).loc main_arg2))) := by
  rw [Value.flushed3_A, stored_block]
  obtain ⟨e0, e1, e2, e3, e4, e5, e6, e7, e8, e9, e10, e11⟩ := block_indices t
  have hoff := k0_off1_eq (grid0.coords t)
  funext j
  obtain ⟨u, r, o, rfl⟩ : ∃ (u : Fin 1) (r : Fin 2048) (o : Fin 512), j = ix3 u r o := ⟨j 0, j 1, j 2, eq_ix3 j⟩
  have hu : u.val = 0 := by omega
  show k0_pay1 (F := Ideal) (iblk m c 0 t) (slab (grid0.coords t) (iblk m c 1 t)) (iblk m c 2 t) (ix3 u r o)
    = layers (m ((c : Thread nD τ).loc main_arg0)) (m ((c : Thread nD τ).loc main_arg1)) (m ((c : Thread nD τ).loc main_arg2))
        (((cfg0.win 3).blk t).view.emb (ix3 u r o))
  refine (block_apply _ _ _ u r o).trans ?_
  refine layers_of_terms _ _ _ _ _ _ _ (fun k => ?_) (fun k => ?_) ?_
  · -- row r of the tile is row 2048·i + r of x
    show V m c main_v0 (((cfg0.win 0).blk t).view.emb (ix2 r k)) = _
    refine (narrowed_x_apply m c _).trans (congrArg _ (funext fun a => Fin.ext ?_))
    match a with
    | ⟨0, _⟩ => show win0_0.index t (0 : Fin 2) * 2048 + 1 * r.val = win0_3.index t (1 : Fin 3) * 2048 + 1 * r.val; omega
    | ⟨1, _⟩ => show win0_0.index t (1 : Fin 2) * 512 + 1 * k.val = k.val; omega
  · -- row o of the slab's matrix is W[e, o, ·]
    show V m c main_v1 (((cfg0.win 1).blk t).view.emb
      ((Rect.unit (s := S16x512x512) (k0_off1 (grid0.coords t)) S1x512x512.size (k0_off1_inb (grid0.coords t))).idx (ix3 (0 : Fin 1) o k))) = _
    refine (narrowed_w_apply m c _).trans (congrArg _ (funext fun a => Fin.ext ?_))
    match a with
    | ⟨0, _⟩ =>
      show win0_1.index t (0 : Fin 3) * 16 + 1 * (k0_off1 (grid0.coords t) 0 + 1 * 0) = win0_3.index t (0 : Fin 3) * 1 + 1 * u.val
      have : k0_off1 (grid0.coords t) 0 = (grid0.coords t (1 : Fin 2)).val := by rw [hoff]; rfl
      omega
    | ⟨1, _⟩ =>
      show win0_1.index t (1 : Fin 3) * 512 + 1 * (k0_off1 (grid0.coords t) 1 + 1 * o.val) = win0_3.index t (2 : Fin 3) * 512 + 1 * o.val
      have : k0_off1 (grid0.coords t) 1 = 0 := by rw [hoff]; rfl
      omega
    | ⟨2, _⟩ =>
      show win0_1.index t (2 : Fin 3) * 512 + 1 * (k0_off1 (grid0.coords t) 2 + 1 * k.val) = k.val
      have : k0_off1 (grid0.coords t) 2 = 0 := by rw [hoff]; rfl
      omega
  · -- the bias row is b[e, ·]
    show V m c main_v2 (((cfg0.win 2).blk t).view.emb (ix3 (0 : Fin 1) (0 : Fin 1) o)) = _
    have hidx : ((cfg0.win 2).blk t).view.emb (ix3 (0 : Fin 1) (0 : Fin 1) o)
        = ix3 (⟨win0_3.index t (0 : Fin 3), e10⟩ : Fin 16) (0 : Fin 1) o := funext fun a => Fin.ext (by
      match a with
      | ⟨0, _⟩ => show win0_2.index t (0 : Fin 3) * 1 + 1 * 0 = win0_3.index t (0 : Fin 3); omega
      | ⟨1, _⟩ => show win0_2.index t (1 : Fin 3) * 1 + 1 * 0 = 0; omega
      | ⟨2, _⟩ => show win0_2.index t (2 : Fin 3) * 512 + 1 * o.val = o.val; omega)
    rw [hidx, reshaped_b_apply]
    refine congrArg _ (funext fun a => Fin.ext ?_)
    match a with
    | ⟨0, _⟩ => show win0_3.index t (0 : Fin 3) = win0_3.index t (0 : Fin 3) * 1 + 1 * u.val; omega
    | ⟨1, _⟩ => show o.val = win0_3.index t (2 : Fin 3) * 512 + 1 * o.val; omega

/-! ## The blocks tile the array -/

/-- An index is in point `t`'s block iff each coordinate is in the block's range on its axis. -/
theorem mem_block (t : Fin cfg0.N) (i : S16x8192x512.Idx) :
    i ∈ ((cfg0.win 3).blk t).view.set ↔ ∀ a : Fin 3, win0_3.index t a * S1x2048x512.size a ≤ (i a).val
      ∧ (i a).val < win0_3.index t a * S1x2048x512.size a + S1x2048x512.size a := by
  show i ∈ ((View.whole main_v3).slice (win0_3.rect t)).set ↔ _
  rw [View.set_slice_whole, Rect.mem_set_unit]
  exact Iff.rfl

/-- Index (e, n, o) is in the block of the point with expert `e` and row-tile `n / 2048`, which writes back. -/
theorem blocks_cover (i : S16x8192x512.Idx) :
    ∃ t : Fin cfg0.N, (cfg0.win 3).flush t = true ∧ i ∈ ((cfg0.win 3).blk t).view.set := by
  have hi0 : (i 0).val < 16 := (i 0).isLt
  have hi1 : (i 1).val < 8192 := (i 1).isLt
  have hi2 : (i 2).val < 512 := (i 2).isLt
  obtain ⟨t, ht⟩ := block_of_pair ⟨(i 0).val, hi0⟩ ⟨(i 1).val / 2048, by omega⟩
  have q0 : win0_3.index t (0 : Fin 3) = (i 0).val := congrFun ht 0
  have q1 : win0_3.index t (1 : Fin 3) = (i 1).val / 2048 := congrFun ht 1
  have q2 : win0_3.index t (2 : Fin 3) = 0 := congrFun ht 2
  refine ⟨t, flush0_3 t, ?_⟩
  rw [mem_block]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 2048 ≤ (i 1).val ∧ (i 1).val < win0_3.index t (1 : Fin 3) * 2048 + 2048; omega
  | ⟨2, _⟩ => show win0_3.index t (2 : Fin 3) * 512 ≤ (i 2).val ∧ (i 2).val < win0_3.index t (2 : Fin 3) * 512 + 512; omega

/-! ## The array after the run -/

/-- The result array ends holding the specification of the argument arrays. -/
theorem result_array (c : Dev nD) : (dats m 0 c).arrAt 3 cfg0.N
    = layers (m ((c : Thread nD τ).loc main_arg0)) (m ((c : Thread nD τ).loc main_arg1)) (m ((c : Thread nD τ).loc main_arg2)) :=
  (dats m 0 c).arrAt_eq_of_cover 3 _ (fun t _ => written_block m c t) blocks_cover

/-- Every weakly fair execution of the kernel program terminates with the result array at the specification of the
    argument arrays, which end unchanged. -/
theorem run : θ_run defs (onTc (τ := τ) (main (F := Ideal))) ⟨m, fun _ => 0, ρ⟩ fun r => ∀ c : Dev nD,
      r.2.mem ((c : Thread nD τ).loc main_v3)
        = layers (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (result_array m c), (h c).2⟩) (Value.run_blocks m ρ)

end Cert.KernelIdeal.Bridge

end
-- ==== Proof.RefValue.lean ====
/-
  The reference's result, read element by element on the extended reals, is the specification.

  The reference contracts `W[e, o, ·]` with `x[n, ·]` into an [16, 512, 8192] array, swaps its last two axes, and adds
  the bias broadcast from [16, 512] through [16, 1, 512] to [16, 8192, 512]. At (e, n, o) that is

      Σ_k W[e, o, k] · x[n, k] + b[e, o],

  the specification's element with the two factors of each product in the other order; a product of extended reals
  does not depend on the order of its factors.
-/
import proofs.«144453_j51926154609119_2_alg».proof.Proof.Gen.ReferenceIdeal.Read
import proofs.«144453_j51926154609119_2_alg».proof.Proof.Spec

noncomputable section

open scoped BigOperators
open Idealize.ShloMosaic Idealize.ShloMosaic.TcCoe Idealize.SL.Sem Idealize.ShloMosaic.ValueIdx

namespace Cert.ReferenceIdeal.Bridge

open Cert.ReferenceIdeal Cert.ReferenceIdeal.Gen Cert.ReferenceIdeal.Read Cert.ExpertLinear

/-- The reference's last stage is the specification of its three arguments. -/
theorem result_eq (x0 : (⟨S8192x512, .f32⟩ : BufTy).Contents (Elt Ideal)) (x1 : (⟨S16x512x512, .f32⟩ : BufTy).Contents (Elt Ideal))
    (x2 : (⟨S16x512, .f32⟩ : BufTy).Contents (Elt Ideal)) :
    val_main_v4 (F := Ideal) x0 x1 x2 = layers x0 x1 x2 := by
  funext i
  obtain ⟨e, n, o, rfl⟩ : ∃ (e : Fin 16) (n : Fin 8192) (o : Fin 512), i = ix3 e n o := ⟨i 0, i 1, i 2, eq_ix3 i⟩
  -- the contraction reads W at (e, o, k) and x at (n, k): the transpose swapped n and o back
  have hl : ∀ k : Fin 512, lidx_main_v0 (idx_main_v1 (ix3 e n o)) k = ix3 e o k := fun k => funext fun a => Fin.ext (by
    match a with
    | ⟨0, _⟩ => rfl
    | ⟨1, _⟩ => rfl
    | ⟨2, _⟩ => rfl)
  have hr : ∀ k : Fin 512, ridx_main_v0 (idx_main_v1 (ix3 e n o)) k = ix2 n k := fun k => funext fun a => Fin.ext (by
    match a with
    | ⟨0, _⟩ => rfl
    | ⟨1, _⟩ => rfl)
  -- the two broadcasts read the bias at (e, o)
  have hb : idx_main_v2 (idx_main_v3 (ix3 e n o)) = ix2 e o := funext fun a => Fin.ext (by
    match a with
    | ⟨0, _⟩ => rfl
    | ⟨1, _⟩ => rfl)
  rw [val_main_v4_apply, val_main_v1_apply, val_main_v0_apply, val_main_v3_apply, val_main_v2_apply, layers_apply]
  simp only [hl, hr, hb]
  show (∑ k : Fin 512, x1 (ix3 e o k) * x0 (ix2 n k)) + x2 (ix2 e o) = _
  exact congrArg (· + x2 (ix2 e o)) (Finset.sum_congr rfl fun k _ => mul_comm _ _)

end Cert.ReferenceIdeal.Bridge

end
-- ==== Proof.lean ====
/-
  Sixteen linear layers over one batch: out[e, n, o] = Σ_d x[n, d] · W[e, o, d] + b[e, o], x of [8192, 512], W of
  [16, 512, 512], b of [16, 512].

  The kernel narrows x and W to a sixteen-bit float format and reshapes b on the host, then runs a 4 × 16 grid: point
  (row-tile i, expert e) multiplies rows 2048·i … 2048·i + 2047 of x by the transpose of expert e's weight matrix into
  a zero accumulator, adds expert e's bias row to every row, and writes block (e, i) of the result. The reference is
  one batched contraction of W with x, a transpose of the last two axes, and the bias broadcast and added.

  Read at the ideal values — a float an extended real, every operation exact, a change of format the identity — both
  results are the function `Cert.ExpertLinear.layers` of the three arguments (Proof/Spec.lean): the kernel's because
  each point stores its block of it (Proof/Payload.lean: the stored block at an index) and the 64 blocks tile the
  array (Proof/KernelValue.lean); the reference's operation by operation (Proof/RefValue.lean). The two differ only in
  the order of the factors of each product, so the inputs' finiteness is never used. The narrowing changes nothing at
  the ideal values and the idealization rewrote no operation, so there is nothing to preserve.
-/
import proofs.«144453_j51926154609119_2_alg».proof.Defs
import proofs.«144453_j51926154609119_2_alg».proof.Proof.Gen.Kernel
import proofs.«144453_j51926154609119_2_alg».proof.Proof.Gen.Kernel.Skeleton
import proofs.«144453_j51926154609119_2_alg».proof.Proof.Gen.Kernel.Launch
import proofs.«144453_j51926154609119_2_alg».proof.Proof.Gen.Kernel.Points
import proofs.«144453_j51926154609119_2_alg».proof.Proof.Gen.Kernel.Frame
import proofs.«144453_j51926154609119_2_alg».proof.Proof.Gen.KernelIdeal
import proofs.«144453_j51926154609119_2_alg».proof.Proof.Gen.KernelIdeal.Skeleton
import proofs.«144453_j51926154609119_2_alg».proof.Proof.Gen.KernelIdeal.Launch
import proofs.«144453_j51926154609119_2_alg».proof.Proof.Gen.KernelIdeal.Points
import proofs.«144453_j51926154609119_2_alg».proof.Proof.Gen.KernelIdeal.Frame
import proofs.«144453_j51926154609119_2_alg».proof.Proof.Gen.ReferenceIdeal
import proofs.«144453_j51926154609119_2_alg».proof.Proof.Gen.Pre_finite_inputs
import proofs.«144453_j51926154609119_2_alg».proof.Proof.Gen.KernelIdeal.Value
import proofs.«144453_j51926154609119_2_alg».proof.Proof.Gen.ReferenceIdeal.Run
import proofs.«144453_j51926154609119_2_alg».proof.Proof.Gen.ReferenceIdeal.Read
import proofs.«144453_j51926154609119_2_alg».proof.Proof.Spec
import proofs.«144453_j51926154609119_2_alg».proof.Proof.Payload
import proofs.«144453_j51926154609119_2_alg».proof.Proof.KernelValue
import proofs.«144453_j51926154609119_2_alg».proof.Proof.RefValue
import Idealize.ShloMosaic.Adequacy
import Idealize.ShloMosaic.Init

noncomputable section

namespace Cert.Proof

open Idealize.ShloMosaic Idealize.SL.Sem

/-- The word-level kernel runs, faults nowhere and leaves its arguments as they were. -/
theorem frame_kernel : Cert.frame_Kernel := fun m ρ _ => Cert.Kernel.Gen.frame m ρ

/-- So does the kernel read at the ideal values. -/
theorem frame_kernel_ideal : Cert.frame_KernelIdeal := fun m ρ _ => Cert.KernelIdeal.Gen.frame m ρ

/-- The reference is five host operations in a row: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten for the ideal reading. -/
theorem preserves : Cert.preserves_Kernel_KernelIdeal := trivial

/-- From memories that agree on x, W and b, the kernel's result array and the reference's both end at
    `out[e, n, o] = Σ_d x[n, d] · W[e, o, d] + b[e, o]` of those arguments. -/
theorem algebraic : Cert.algebraic_KernelIdeal_ReferenceIdeal := by
  intro m ρ m' ρ' _ hagree
  refine ⟨_, Cert.KernelIdeal.Bridge.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.Bridge.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
